-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x1, .f32⟩
  | .hbm, ⟨3, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x1, .f32⟩
  | .local _ .vmem, ⟨5, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v48 : BitVec 1 := Scalar.cmpi .eq arg0 c63_i32
  let v49 : BitVec 32 := Scalar.extui v48
  let c0_i32_15 : BitVec 32 := 0#32
  let v50 : BitVec 1 := Scalar.cmpi .ne v49 c0_i32_15
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  reduces_S128x1_S1 : S128x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S8192_S_d0 : S8192.ReducesTo [0] S_

variable [Facts₀]

class Facts : Prop extends Facts₀ where

variable [Facts]
-- ==== Proof.KernelPieces.lean ====
/-
  What one run of the body leaves behind, case by case.

  The body keeps a running scalar in a 1 × 1 scratch.  At the first grid point it first stores zero there; at
  every point it then loads the two 128 × 4096 blocks and the scratch, and stores back the scratch plus the sum
  of the block's 128 row terms; at the last point it copies the scratch to the 1 × 1 output block.
  So after the body the scratch holds `step (blocks) (what it held before)`, with zero for "before" at the
  first point, and at the last point the output block holds the same value.
-/
import proofs.«114691_j55319178772781_2_alg».proof.Proof.Gen.KernelIdeal.Frame
import Idealize.ShloMosaic.Lib.Pipeline.Value
import Idealize.ShloMosaic.Lib.Tactic

noncomputable section

namespace Cert.KernelPieces

open Cert.KernelIdeal Cert.KernelIdeal.Gen
open Idealize.ShloMosaic Idealize.ShloMosaic.TcCoe Idealize.ShloMosaic.Tactic Idealize.SL.Sem

variable {F : FTy → Type} [FloatOps F]

/-- Every store and load of the body is at offset zero. -/
theorem hz : (![0, 0] : Fin 2 → Nat) = fun _ => 0 := funext fun a => by fin_cases a <;> rfl

/-- A middle point: the scratch holding `xs0` ends at `xs0` plus the block's sum. -/
theorem sout_B (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x4096 .f32) (x1 : Vec F S128x4096 .f32) (xs0 : Vec F S1x1 .f32) :
    sout0_B_0 c i arg1 harg1 arg2 harg2 arg3 harg3 arg4 harg4 hc0 hc1 x0 x1 xs0 = k0_pay1 (k0_pay3 x0 x1) xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero (S := S1x1) hz]
  simp only [View.readAt_eq_ld, harg1.read_unread, harg2.read_unread, harg4.read_unread,
    View.ld_unit_zero (S := S128x4096) hz, View.ld_unit_zero (S := S1x1) hz]

/-- The first point: the scratch is first set to zero, so it ends at zero plus the block's sum. -/
theorem sout_A (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x4096 .f32) (x1 : Vec F S128x4096 .f32) :
    sout0_A_0 c i arg1 harg1 arg2 harg2 arg3 harg3 arg4 harg4 hc0 hc1 x0 x1 = k0_pay1 (k0_pay3 x0 x1) (k0_pay2 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread,
    View.ld_unit_zero (S := S128x4096) hz]

/-- The last point: the scratch ends as at a middle point, -/
theorem sout_C (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x4096 .f32) (x1 : Vec F S128x4096 .f32) (xs0 : Vec F S1x1 .f32) :
    sout0_C_0 c i arg1 harg1 arg2 harg2 arg3 harg3 arg4 harg4 hc0 hc1 x0 x1 xs0 = k0_pay1 (k0_pay3 x0 x1) xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero (S := S1x1) hz]
  simp only [View.readAt_eq_ld, harg1.read_unread, harg2.read_unread, harg4.read_unread,
    View.ld_unit_zero (S := S128x4096) hz, View.ld_unit_zero (S := S1x1) hz]

/-- and the output block receives the scratch's new value. -/
theorem out_C (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x4096 .f32) (x1 : Vec F S128x4096 .f32) (xs0 : Vec F S1x1 .f32) :
    out0_C_2 c i arg1 harg1 arg2 harg2 arg3 harg3 arg4 harg4 hc0 hc1 x0 x1 xs0 = k0_pay1 (k0_pay3 x0 x1) xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero (S := S1x1) hz, View.readCov_unit_zero (S := S1x1) _ hz]
  simp only [View.readAt_eq_ld, harg1.read_unread, harg2.read_unread, harg4.read_unread,
    View.ld_unit_zero (S := S128x4096) hz, View.ld_unit_zero (S := S1x1) hz]

end Cert.KernelPieces

end
-- ==== Proof.RowSpec.lean ====
/-
  The quantity both programs compute, as a function of one row of each argument.

  For rows `a, b : Fin 4096 → EReal` write `σ a` for the softmax of `a` taken in its stable form,
  `σ a j = exp (a j − max a) / ∑ₖ exp (a k − max a)`, with `max a` the maximum of the row (from `−∞`).
  With `μ j = ½ · (σ a j + σ b j)` the Jensen–Shannon weight of column `j` is
  `w j = ½ · (σ b j · log (σ b j / μ j) + σ a j · log (σ a j / μ j))`,
  and the row's term is `√ (∑ⱼ (a j − b j)² · w j)`.  Every operation is the exact one on the extended reals.
  The result of either program is the sum of the row terms over the 8192 rows.
-/
import Idealize.ShloMosaic.PureOps.Ideal
import Idealize.ShloMosaic.PureOps.Ideal.Laws
import Idealize.ShloMosaic.Lib.ValueIdx

noncomputable section

namespace Cert.RowSpec

open Idealize.ShloMosaic

/-- The word of `−∞`, the value a row maximum starts from. -/
abbrev ninf : EReal := Ideal.ofBits .f32 0xFF800000#32
/-- The word of `½`. -/
abbrev half : EReal := Ideal.ofBits .f32 0x3F000000#32
/-- The word of `0`. -/
abbrev zero : EReal := Ideal.ofBits .f32 0x00000000#32

/-- A row's maximum, folded from `−∞`. -/
def rmax (a : Fin 4096 → EReal) : EReal := (Finset.univ : Finset (Fin 4096)).fold max ninf a

/-- The stable softmax of a row at column `j`. -/
def sm (a : Fin 4096 → EReal) (j : Fin 4096) : EReal :=
  Ideal.div (Ideal.exp (a j - rmax a)) (∑ k : Fin 4096, Ideal.exp (a k - rmax a))

/-- The midpoint of the two softmaxes. -/
def mid (a b : Fin 4096 → EReal) (j : Fin 4096) : EReal := half * (sm a j + sm b j)

/-- The Jensen–Shannon weight of column `j`. -/
def wgt (a b : Fin 4096 → EReal) (j : Fin 4096) : EReal :=
  half * (sm b j * Ideal.log (Ideal.div (sm b j) (mid a b j)) + sm a j * Ideal.log (Ideal.div (sm a j) (mid a b j)))

/-- The row's term: the root of the weighted squared distance. -/
def rowTerm (a b : Fin 4096 → EReal) : EReal :=
  Ideal.sqrt (∑ j : Fin 4096, (a j - b j) * (a j - b j) * wgt a b j)

/-- Row `i` of an 8192 × 4096 array. -/
abbrev arow (X : (⟨2, ![8192, 4096]⟩ : Shape).Idx → EReal) (i : Fin 8192) : Fin 4096 → EReal :=
  fun k => X (ValueIdx.ix2 i k)

/-- The result: `0` plus the sum of the row terms over all 8192 rows. -/
def total (P Q : (⟨2, ![8192, 4096]⟩ : Shape).Idx → EReal) : EReal :=
  zero + ∑ i : Fin 8192, rowTerm (arow P i) (arow Q i)

/-- `−∞` is neutral for the maximum. -/
theorem max_ninf (x : EReal) : max ninf x = x := by
  have h : ninf = ⊥ := by simp [ninf, Ideal.ofBits, Ideal.ieee]
  rw [h]; exact max_bot_left x

/-- The zero word is neutral for the sum. -/
theorem zero_add_word (x : EReal) : zero + x = x := by
  show Ideal.ofBits .f32 0x00000000#32 + x = x
  rw [Ideal.ofBits_zero_f32, zero_add]

end Cert.RowSpec

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.KernelRow.lean ====
/-
  The kernel body's arithmetic, read at an index.

  On a block of 128 rows of each argument the body computes, row by row, the row term of the two rows:
  the row maxima and row sums are lane reductions kept as 128 × 1 columns and broadcast back over the
  4096 columns, everything else is pointwise.  Then it adds the 128 row terms to the carried scalar.
-/
import proofs.«114691_j55319178772781_2_alg».proof.Proof.Gen.KernelIdeal.Skeleton
import proofs.«114691_j55319178772781_2_alg».proof.Proof.RowSpec
import proofs.«114691_j55319178772781_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelRow

open Cert.KernelIdeal Cert.KernelIdeal.Gen Cert.RowSpec Cert.LibColumn
open Idealize.ShloMosaic Idealize.ShloMosaic.ValueIdx

/-- Row `r` of a 128 × 4096 block. -/
abbrev brow (x : S128x4096.Idx → EReal) (r : Fin 128) : Fin 4096 → EReal := fun k => x (ix2 r k)

/-- The sum of a block's rows, kept as a column: at row `r` the sum of row `r`. -/
theorem rowsum_col (y : FVec Ideal S128x4096 .f32) (h : S128x4096.Reduces [1] S128) (hφ : FKind.Formats .f32)
    (hacc : (0x00000000#32 : BitVec 32) = 0x00000000#32) (hc : S128.ShapeCasts S128x1) (r : Fin 128) (u : Fin 1) :
    shapeCast S128x1 (multiReduction .add [1] S128 y 0x00000000#32 h hφ hacc) hc (ix2 r u)
      = ∑ k : Fin 4096, y (ix2 r k) := by
  refine (shapeCast_a_a1_apply _ hc r u).trans ?_
  refine (Ideal.multiReduction_add_single y 0x00000000#32 h hφ hacc (ix1 r)).trans ?_
  exact Finset.sum_congr rfl fun k _ => congrArg y (lift_cols h r k)

/-- The same column broadcast back over the columns. -/
theorem rowsum_bcast (y : FVec Ideal S128x4096 .f32) (h : S128x4096.Reduces [1] S128) (hφ : FKind.Formats .f32)
    (hacc : (0x00000000#32 : BitVec 32) = 0x00000000#32) (hc : S128.ShapeCasts S128x1)
    (hb : S128x1.Broadcasts S128x4096) (r : Fin 128) (c : Fin 4096) :
    broadcastTo S128x4096 (shapeCast S128x1 (multiReduction .add [1] S128 y 0x00000000#32 h hφ hacc) hc) hb (ix2 r c)
      = ∑ k : Fin 4096, y (ix2 r k) :=
  (broadcastTo_a1_ab_apply _ hb r c).trans (rowsum_col y h hφ hacc hc r 0)

/-- The maximum of a block's rows, from `−∞`, broadcast back over the columns: at `(r, c)` the maximum of row `r`. -/
theorem rowmax_bcast (x : FVec Ideal S128x4096 .f32) (h : S128x4096.Reduces [1] S128) (hφ : FKind.Formats .f32)
    (hacc : (0xFF800000#32 : BitVec 32) = 0xFF800000#32) (hc : S128.ShapeCasts S128x1)
    (hb : S128x1.Broadcasts S128x4096) (r : Fin 128) (c : Fin 4096) :
    broadcastTo S128x4096 (shapeCast S128x1 (multiReduction .maximumf [1] S128 x 0xFF800000#32 h hφ hacc) hc) hb (ix2 r c)
      = rmax (brow x r) := by
  refine (broadcastTo_a1_ab_apply _ hb r c).trans ?_
  refine (shapeCast_a_a1_apply _ hc r 0).trans ?_
  refine (Ideal.multiReduction_maximumf_single x 0xFF800000#32 h hφ hacc (ix1 r)).trans ?_
  unfold rmax
  exact congrArg (fun f => Finset.fold max ninf f (Finset.univ : Finset (Fin 4096)))
    (funext fun k => congrArg x (lift_cols h r k))

/-- The pointwise exponential, logarithm and square root read at an index. -/
theorem exp_apply {s : Shape} (a : FVec Ideal s .f32) (i : s.Idx) : exp a i = Ideal.exp (a i) := rfl
theorem log_apply {s : Shape} (a : FVec Ideal s .f32) (i : s.Idx) : log a i = Ideal.log (a i) := rfl
theorem sqrt_apply {s : Shape} (a : FVec Ideal s .f32) (i : s.Idx) : sqrt a i = Ideal.sqrt (a i) := rfl

/-- The block's softmax at `(r, c)`: the exponential of the entry less its row's maximum, over the row's sum of
    such exponentials — the softmax of row `r` at column `c`. -/
theorem bsm_apply (x : FVec Ideal S128x4096 .f32) (h : S128x4096.Reduces [1] S128) (hφ : FKind.Formats .f32)
    (hmax : (0xFF800000#32 : BitVec 32) = 0xFF800000#32) (hadd : (0x00000000#32 : BitVec 32) = 0x00000000#32)
    (hc : S128.ShapeCasts S128x1) (hb : S128x1.Broadcasts S128x4096) (r : Fin 128) (c : Fin 4096) :
    divf (exp (subf x (broadcastTo S128x4096 (shapeCast S128x1 (multiReduction .maximumf [1] S128 x 0xFF800000#32 h hφ hmax) hc) hb)))
      (broadcastTo S128x4096 (shapeCast S128x1 (multiReduction .add [1] S128
        (exp (subf x (broadcastTo S128x4096 (shapeCast S128x1 (multiReduction .maximumf [1] S128 x 0xFF800000#32 h hφ hmax) hc) hb)))
        0x00000000#32 h hφ hadd) hc) hb) (ix2 r c)
      = sm (brow x r) c := by
  rw [divf_apply, rowsum_bcast, exp_apply, subf_apply, rowmax_bcast]
  unfold sm
  refine congrArg (Ideal.div _) (Finset.sum_congr rfl fun k _ => ?_)
  rw [exp_apply, subf_apply, rowmax_bcast]

/-- The same as an equation of blocks. -/
theorem bsm_eq (x : FVec Ideal S128x4096 .f32) (h : S128x4096.Reduces [1] S128) (hφ : FKind.Formats .f32)
    (hmax : (0xFF800000#32 : BitVec 32) = 0xFF800000#32) (hadd : (0x00000000#32 : BitVec 32) = 0x00000000#32)
    (hc : S128.ShapeCasts S128x1) (hb : S128x1.Broadcasts S128x4096) :
    divf (exp (subf x (broadcastTo S128x4096 (shapeCast S128x1 (multiReduction .maximumf [1] S128 x 0xFF800000#32 h hφ hmax) hc) hb)))
      (broadcastTo S128x4096 (shapeCast S128x1 (multiReduction .add [1] S128
        (exp (subf x (broadcastTo S128x4096 (shapeCast S128x1 (multiReduction .maximumf [1] S128 x 0xFF800000#32 h hφ hmax) hc) hb)))
        0x00000000#32 h hφ hadd) hc) hb)
      = fun i : S128x4096.Idx => sm (brow x (i 0)) (i 1) := by
  funext i
  obtain ⟨r, c, rfl⟩ : ∃ (r : Fin 128) (c : Fin 4096), i = ix2 r c := ⟨i 0, i 1, eq_ix2 i⟩
  exact bsm_apply x h hφ hmax hadd hc hb r c

/-- The per-row payload: at row `r` of the column it is the row term of row `r` of the two blocks. -/
theorem pay3_apply (x0 x1 : FVec Ideal S128x4096 .f32) (r : Fin 128) (u : Fin 1) :
    k0_pay3 (F := Ideal) x0 x1 (ix2 r u) = rowTerm (brow x0 r) (brow x1 r) := by
  unfold k0_pay3
  dsimp only
  rw [bsm_eq x0, bsm_eq x1]
  rw [sqrt_apply, rowsum_col]
  unfold rowTerm
  refine congrArg Ideal.sqrt (Finset.sum_congr rfl fun k _ => ?_)
  rfl

/-- The accumulating payload: the carried scalar plus the sum of the column's 128 entries. -/
theorem pay1_apply (v40 : FVec Ideal S128x1 .f32) (v41 : FVec Ideal S1x1 .f32) (u w : Fin 1) :
    k0_pay1 (F := Ideal) v40 v41 (ix2 u w) = v41 (ix2 u w) + ∑ r : Fin 128, v40 (ix2 r w) := by
  unfold k0_pay1
  dsimp only
  rw [shapeCast_self, addf_apply]
  refine congrArg (v41 (ix2 u w) + ·) ?_
  refine (shapeCast_a_1a_apply _ _ u w).trans ?_
  refine (Ideal.multiReduction_add_single v40 0x00000000#32 _ _ _ (ix1 w)).trans ?_
  exact Finset.sum_congr rfl fun k _ => congrArg v40 (lift_rows _ w k)

/-- The resetting payload is the zero word everywhere. -/
theorem pay2_apply (i : S1x1.Idx) : k0_pay2 (F := Ideal) i = zero := by
  unfold k0_pay2
  rw [shapeCast_self]
  rfl

/-- The sum of the row terms of a block's 128 rows. -/
def blockSum (x0 x1 : FVec Ideal S128x4096 .f32) : EReal := ∑ r : Fin 128, rowTerm (brow x0 r) (brow x1 r)

/-- One run of the body adds the block's sum to the carried scalar. -/
theorem step_value (x0 x1 : FVec Ideal S128x4096 .f32) (xs : FVec Ideal S1x1 .f32) (y : S1x1.Idx) :
    k0_pay1 (F := Ideal) (k0_pay3 x0 x1) xs y = xs y + blockSum x0 x1 := by
  obtain ⟨u, w, rfl⟩ : ∃ (u w : Fin 1), y = ix2 u w := ⟨y 0, y 1, eq_ix2 y⟩
  rw [pay1_apply]
  exact congrArg (xs (ix2 u w) + ·) (Finset.sum_congr rfl fun r _ => pay3_apply x0 x1 r w)

end Cert.KernelRow

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.KernelAcc.lean ====
/-
  The scratch over the grid: a running sum of block sums.

  After grid point `n` the carried scratch holds `0 + B₀ + B₁ + … + Bₙ`, where `Bₜ` is the sum of the row terms
  of block `t`'s 128 rows (induction on the point: the first point starts from zero, every later one from what
  the point before left).  Row `r` of block `t` is row `128·t + r` of the argument arrays, so `Bₜ` is the sum of
  the row terms of rows `128·t … 128·t + 127`, and the 64 block sums together are the sum over all 8192 rows.
-/
import proofs.«114691_j55319178772781_2_alg».proof.Proof.Gen.KernelIdeal.Frame
import proofs.«114691_j55319178772781_2_alg».proof.Proof.KernelPieces
import proofs.«114691_j55319178772781_2_alg».proof.Proof.KernelRow
import proofs.«114691_j55319178772781_2_alg».proof.Proof.LibBlockSum
import Idealize.ShloMosaic.Lib.Pipeline.Value

noncomputable section

namespace Cert.KernelAcc

open Cert.KernelIdeal Cert.KernelIdeal.Gen Cert.RowSpec Cert.KernelRow Cert.KernelPieces
open Idealize.ShloMosaic Idealize.ShloMosaic.TcCoe Idealize.SL.Sem Idealize.ShloMosaic.ValueIdx

variable (m : (ℓ : Loc nD τ sig) → Buf (Elt Ideal) ℓ)

/-- The running value after point `n`: zero plus the block sums of points `0 … n`, added in point order. -/
def acc (c : Dev nD) : (n : ℕ) → n < cfg0.N → EReal
  | 0, h => zero + blockSum (iblk m c 0 ⟨0, h⟩) (iblk m c 1 ⟨0, h⟩)
  | n + 1, h => acc c n (Nat.lt_of_succ_lt h) + blockSum (iblk m c 0 ⟨n + 1, h⟩) (iblk m c 1 ⟨n + 1, h⟩)

/-- After every point the carried scratch holds the running value. -/
theorem scratch_eq (c : Dev nD) : ∀ (n : ℕ) (h : n < cfg0.N), (outsAt0 m c n h).2 = fun _ => acc m c n h
  | 0, h => by
    have e := outsAt0_A m c ⟨0, h⟩ rfl (by dsimp only; omega)
    refine (congrArg Prod.snd e).trans ?_
    dsimp only
    rw [sout_A]
    funext y
    refine (step_value (iblk m c 0 ⟨0, h⟩) (iblk m c 1 ⟨0, h⟩) k0_pay2 y).trans ?_
    rw [pay2_apply]
    rfl
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · have e := outsAt0_C m c ⟨n + 1, h⟩ h0 h1
      refine (congrArg Prod.snd e).trans ?_
      dsimp only
      rw [sout_C]
      funext y
      refine (step_value (iblk m c 0 ⟨n + 1, h⟩) (iblk m c 1 ⟨n + 1, h⟩) _ y).trans ?_
      show (outsAt0 m c n _).2 y + _ = acc m c n _ + _
      rw [scratch_eq c n]
    · have e := outsAt0_B m c ⟨n + 1, h⟩ h0 h1
      refine (congrArg Prod.snd e).trans ?_
      dsimp only
      rw [sout_B]
      funext y
      refine (step_value (iblk m c 0 ⟨n + 1, h⟩) (iblk m c 1 ⟨n + 1, h⟩) _ y).trans ?_
      show (outsAt0 m c n _).2 y + _ = acc m c n _ + _
      rw [scratch_eq c n]

/-- At the last point the output block receives the running value. -/
theorem out_last (c : Dev nD) (h : 63 < cfg0.N) : (outsAt0 m c 63 h).1 = fun _ => acc m c 63 h := by
  have e := outsAt0_C m c ⟨63, h⟩ (by dsimp only; omega) (by dsimp only)
  refine (congrArg Prod.fst e).trans ?_
  dsimp only
  rw [out_C]
  funext y
  refine (step_value (iblk m c 0 ⟨63, h⟩) (iblk m c 1 ⟨63, h⟩) _ y).trans ?_
  show (outsAt0 m c 62 _).2 y + _ = acc m c 62 _ + _
  rw [scratch_eq m c 62]

/-- Block `t` of either argument starts at row `128·t`, column `0`. -/
theorem idx_facts : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Row `r` of the first argument's block `t` is row `128·t + r` of the array. -/
theorem iblk0_row (c : Dev nD) (t : Fin cfg0.N) (r : Fin 128) (hq : 128 * t.val + r.val < 8192) :
    brow (iblk m c 0 t) r = arow (m ((c.tc : Thread nD τ).loc main_arg0)) ⟨128 * t.val + r.val, hq⟩ := by
  funext k
  show iblk m c 0 t (ix2 r k) = _
  unfold iblk
  rw [View.read_apply]
  show V m c main_arg0 _ = m ((c.tc : Thread nD τ).loc main_arg0) _
  rw [V_main_arg0]
  refine congrArg (m ((c.tc : Thread nD τ).loc main_arg0)) (funext fun a => Fin.ext ?_)
  match a with
  | ⟨0, _⟩ =>
    show win0_0.index t 0 * 128 + 1 * r.val = 128 * t.val + r.val
    rw [(idx_facts t).1]; omega
  | ⟨1, _⟩ =>
    show win0_0.index t 1 * 4096 + 1 * k.val = k.val
    rw [(idx_facts t).2.1]; omega

/-- The same for the second argument. -/
theorem iblk1_row (c : Dev nD) (t : Fin cfg0.N) (r : Fin 128) (hq : 128 * t.val + r.val < 8192) :
    brow (iblk m c 1 t) r = arow (m ((c.tc : Thread nD τ).loc main_arg1)) ⟨128 * t.val + r.val, hq⟩ := by
  funext k
  show iblk m c 1 t (ix2 r k) = _
  unfold iblk
  rw [View.read_apply]
  show V m c main_arg1 _ = m ((c.tc : Thread nD τ).loc main_arg1) _
  rw [V_main_arg1]
  refine congrArg (m ((c.tc : Thread nD τ).loc main_arg1)) (funext fun a => Fin.ext ?_)
  match a with
  | ⟨0, _⟩ =>
    show win0_1.index t 0 * 128 + 1 * r.val = 128 * t.val + r.val
    rw [(idx_facts t).2.2.1]; omega
  | ⟨1, _⟩ =>
    show win0_1.index t 1 * 4096 + 1 * k.val = k.val
    rw [(idx_facts t).2.2.2]; omega

/-- The row term of row `q` of two arrays, as a function of the natural number `q` (zero past the last row). -/
def rowAt (P Q : (⟨2, ![8192, 4096]⟩ : Shape).Idx → EReal) (q : ℕ) : EReal :=
  if h : q < 8192 then rowTerm (arow P ⟨q, h⟩) (arow Q ⟨q, h⟩) else 0

/-- Block `t`'s sum is the sum of the row terms of rows `128·t + r`. -/
theorem blockSum_eq (c : Dev nD) (t : Fin cfg0.N) :
    blockSum (iblk m c 0 t) (iblk m c 1 t)
      = ∑ r : Fin 128, rowAt (m ((c.tc : Thread nD τ).loc main_arg0)) (m ((c.tc : Thread nD τ).loc main_arg1)) (128 * t.val + r.val) := by
  have hN : cfg0.N = 64 := N_0
  have ht : t.val < 64 := by have := t.isLt; omega
  unfold blockSum
  refine Finset.sum_congr rfl fun r _ => ?_
  have hq : 128 * t.val + r.val < 8192 := by have := r.isLt; omega
  rw [iblk0_row m c t r hq, iblk1_row m c t r hq]
  unfold rowAt
  rw [dif_pos hq]

/-- The running value in closed form. -/
theorem acc_eq (c : Dev nD) : ∀ (n : ℕ) (h : n < cfg0.N), acc m c n h
    = zero + ∑ t ∈ Finset.range (n + 1), ∑ r : Fin 128,
        rowAt (m ((c.tc : Thread nD τ).loc main_arg0)) (m ((c.tc : Thread nD τ).loc main_arg1)) (128 * t + r.val)
  | 0, h => by
    rw [acc, blockSum_eq, Finset.sum_range_one]
  | n + 1, h => by
    rw [acc, acc_eq c n, blockSum_eq, Finset.sum_range_succ _ (n + 1), add_assoc]

/-- After the last point the running value is the whole result. -/
theorem acc_last (c : Dev nD) (h : 63 < cfg0.N) :
    acc m c 63 h = total (m ((c.tc : Thread nD τ).loc main_arg0)) (m ((c.tc : Thread nD τ).loc main_arg1)) := by
  rw [acc_eq, Cert.LibBlockSum.sum_blocks 64 128]
  unfold total
  refine congrArg (zero + ·) ?_
  show ∑ q : Fin 8192, rowAt _ _ q.val = _
  exact Finset.sum_congr rfl fun q _ => dif_pos q.isLt

end Cert.KernelAcc

end
-- ==== Proof.KernelRun.lean ====
/-
  The kernel's run, read: its result is `total` of the arguments.

  The 1 × 1 output array is written back once, after the last grid point, with the running value the output
  block then holds; that one block is the whole array.  The host then reshapes the 1 × 1 array to a scalar,
  which keeps its one entry.  So the result is the running value after point 63, that is, zero plus the sum of
  the row terms of all 8192 rows.
-/
import proofs.«114691_j55319178772781_2_alg».proof.Proof.KernelAcc
import Idealize.ShloMosaic.Lib.Pipeline.Value
import Idealize.ShloMosaic.Lib.StableHlo.Run

noncomputable section

namespace Cert.KernelRun

open Cert.KernelIdeal Cert.KernelIdeal.Gen Cert.RowSpec Cert.KernelAcc
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The last grid point. -/
abbrev tLast : Fin cfg0.N := ⟨63, by rw [show cfg0.N = 64 from N_0]; decide⟩

/-- The 1 × 1 output array's final contents: the running value after the last point, at its one index. -/
abbrev result (c : Dev nD) : Buf (Elt Ideal) ((c.tc : Thread nD τ).loc main_v0) := fun _ => acc m c 63 tLast.isLt

/-- The one write-back, after the last point, writes the running value. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, out_last]
  rfl

/-- That block covers the array's one index, so the array ends at the running value. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]; omega⟩

/-- The host's reshape of the 1 × 1 array to a scalar keeps the value: the program's result is `total`. -/
theorem tail_eq (c : Dev nD) :
    Pipeline.afterTail₀ cfgs (dats m) 0 (V0 m) [hostOps1] c main_v1
      = fun _ => total (m ((c.tc : Thread nD τ).loc main_arg0)) (m ((c.tc : Thread nD τ).loc main_arg1)) := by
  unfold Pipeline.afterTail₀
  show StableHlo.after hostOps1 _ (Proc.devRef .tc main_v1) = _
  after_results
  rw [Pipeline.withArrays_arr spec0 launch0.win.arr_inj c _ _ 2, final_o]
  funext i
  exact acc_last m c tLast.isLt

/-- The kernel's run: every weakly fair execution terminates with the result at `total` of the arguments, and the
    arguments unchanged. -/
theorem run : θ_run defs (onTc (τ := τ) (main (F := Ideal))) ⟨m, fun _ => 0, ρ⟩ fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelRun

end
-- ==== Proof.RefRow.lean ====
/-
  The reference read row by row.

  Its softmax is the stable one: the row maximum (taken from `−∞`, then once more against `−∞`) is
  subtracted before the exponential, and the exponentials are divided by their row sum (taken from `0`).
  So each stage, read at `(i, j)`, depends on row `i` of the arguments only, the per-row stage is the row
  term, and the result is `0` plus the sum of the row terms over all rows.
-/
import proofs.«114691_j55319178772781_2_alg».proof.Proof.Gen.ReferenceIdeal.Read
import proofs.«114691_j55319178772781_2_alg».proof.Proof.RowSpec
import proofs.«114691_j55319178772781_2_alg».proof.Proof.LibColumn
import Idealize.ShloMosaic.PureOps.Reduce
import Idealize.ShloMosaic.Lib.ValueIdx

noncomputable section

namespace Cert.RefRow

open Cert.ReferenceIdeal Cert.ReferenceIdeal.Gen Cert.ReferenceIdeal.Read Cert.RowSpec Cert.LibColumn
open Idealize.ShloMosaic Idealize.ShloMosaic.ValueIdx

/-- An 8192 × 4096 array of extended reals. -/
abbrev Arr : Type := (⟨S8192x4096, .f32⟩ : BufTy).Contents (Elt Ideal)

/-- The row maximum stage at row `i` is the maximum of row `i`. -/
theorem max_stage (X : Arr) (i : Fin 8192) : val_main_v2 (F := Ideal) X (ix1 i) = rmax (arow X i) := by
  rw [val_main_v2_apply, val_main_v1_apply, val_main_cst_0_apply]
  unfold val_main_v0
  have h := Host.reduce_eq_fold_single (FloatOps.maximumf (F := Ideal) (φ := .f32)) X (val_main_cst (F := Ideal))
    reducesTo_S8192x4096_S8192_d1 (by decide) h_S_ (ix1 i)
  refine (congrArg (max ninf) h).trans ?_
  rw [max_ninf]
  unfold rmax
  exact congrArg (fun f => Finset.fold max ninf f (Finset.univ : Finset (Fin 4096)))
    (funext fun k => congrArg X (lift_cols _ i k))

/-- The exponential stage at `(i, j)`. -/
theorem exp_stage (X : Arr) (i : Fin 8192) (j : Fin 4096) :
    val_main_v6 (F := Ideal) X (ix2 i j) = Ideal.exp (X (ix2 i j) - rmax (arow X i)) := by
  rw [val_main_v6_apply, val_main_v5_apply, val_main_v4_apply, val_main_v3_apply]
  rw [show idx_main_v3 (idx_main_v4 (ix2 i j)) = ix1 i from
    funext fun a => Fin.ext (by match a with | ⟨0, _⟩ => rfl)]
  rw [max_stage]
  rfl

/-- The softmax stage of the first argument at `(i, j)` is the softmax of row `i` at `j`. -/
theorem sm_stage0 (X : Arr) (i : Fin 8192) (j : Fin 4096) :
    val_main_v10 (F := Ideal) X (ix2 i j) = sm (arow X i) j := by
  rw [val_main_v10_apply, val_main_v9_apply, val_main_v8_apply, val_main_v7_apply, val_main_cst_1_apply, exp_stage]
  have e : ∀ k : Fin 4096, val_main_v6 (F := Ideal) X (idx_main_v7 (idx_main_v8 (idx_main_v9 (ix2 i j))) k)
      = Ideal.exp (arow X i k - rmax (arow X i)) := fun k => by
    rw [show idx_main_v7 (idx_main_v8 (idx_main_v9 (ix2 i j))) k = ix2 i k from
      funext fun a => Fin.ext (by match a with | ⟨0, _⟩ => rfl | ⟨1, _⟩ => rfl)]
    exact exp_stage X i k
  simp only [e]
  show Ideal.div _ (zero + _) = _
  rw [zero_add_word]
  rfl

/-- The second argument's softmax stage is the same function of its array. -/
theorem sm_stage1 (X : Arr) (i : Fin 8192) (j : Fin 4096) :
    val_main_v21 (F := Ideal) X (ix2 i j) = sm (arow X i) j :=
  (show val_main_v21 (F := Ideal) X (ix2 i j) = val_main_v10 (F := Ideal) X (ix2 i j) from rfl).trans (sm_stage0 X i j)

/-- The weighted squared distance stage at `(i, k)`. -/
theorem term_stage (P Q : Arr) (i : Fin 8192) (k : Fin 4096) :
    val_main_v36 (F := Ideal) P Q (ix2 i k)
      = (arow P i k - arow Q i k) * (arow P i k - arow Q i k) * wgt (arow P i) (arow Q i) k := by
  rw [val_main_v36_apply, val_main_v35_apply, val_main_v34_apply, val_main_v33_apply, val_main_v32_apply,
    val_main_cst_6_apply, val_main_v31_apply, val_main_v27_apply, val_main_v30_apply, val_main_v26_apply,
    val_main_v29_apply, val_main_v25_apply, val_main_v28_apply, val_main_v24_apply, val_main_v23_apply,
    val_main_cst_5_apply, val_main_v22_apply, sm_stage0, sm_stage1]
  rfl

/-- The per-row stage at row `i` is the row term of row `i` of the two arguments. -/
theorem row_stage (P Q : Arr) (i : Fin 8192) :
    val_main_v38 (F := Ideal) P Q (ix1 i) = rowTerm (arow P i) (arow Q i) := by
  rw [val_main_v38_apply, val_main_v37_apply, val_main_cst_7_apply]
  have e : ∀ k : Fin 4096, val_main_v36 (F := Ideal) P Q (idx_main_v37 (ix1 i) k)
      = (arow P i k - arow Q i k) * (arow P i k - arow Q i k) * wgt (arow P i) (arow Q i) k := fun k => by
    rw [show idx_main_v37 (ix1 i) k = ix2 i k from
      funext fun a => Fin.ext (by match a with | ⟨0, _⟩ => rfl | ⟨1, _⟩ => rfl)]
    exact term_stage P Q i k
  simp only [e]
  show Ideal.sqrt (zero + _) = _
  rw [zero_add_word]
  rfl

/-- Indices of a length-8192 vector are the numbers below 8192. -/
def idx1Equiv : S8192.Idx ≃ Fin 8192 where
  toFun j := j 0
  invFun i := ix1 i
  left_inv j := (eq_ix1 j).symm
  right_inv _ := rfl

/-- The reference's result: `0` plus the sum of the row terms. -/
theorem ref_value (P Q : Arr) (j : S_.Idx) : val_main_v39 (F := Ideal) P Q j = total P Q := by
  rw [val_main_v39_apply, val_main_cst_8_apply]
  show zero + _ = zero + _
  refine congrArg (zero + ·) ?_
  exact Fintype.sum_equiv idx1Equiv _ _ fun j =>
    (congrArg (val_main_v38 (F := Ideal) P Q) (eq_ix1 j)).trans (row_stage P Q (j 0))

end Cert.RefRow

end
-- ==== Proof.lean ====
/-
  The kernel and its reference compute one number from two 8192 × 4096 arrays `p` and `q`:

      ∑ over rows i of  √( ∑ over columns j of (p i j − q i j)² · w i j ),

  where, with `σ` the row-wise softmax (in its stable form: the row maximum is subtracted before the
  exponential) and `μ = ½ · (σ p + σ q)`, the weight is the Jensen–Shannon term
  `w = ½ · (σ q · log (σ q / μ) + σ p · log (σ p / μ))`.

  The reference takes the row terms of all 8192 rows and sums them (from zero).  The kernel walks the rows in
  64 blocks of 128: at each block it computes the 128 row terms, sums them, and adds the sum to a scalar it
  carries from block to block (reset to zero at the first block); after the last block the scalar is the
  output.  Row by row the two programs apply the same exact operations on the extended reals — the reference's
  extra maximum against `−∞` and its sums' initial zero change nothing — so they agree on every row term, and
  the two results differ only in how the 8192 row terms are grouped when added.  Addition of extended reals is
  commutative and associative, infinite values included, so the grouping does not matter: no finiteness of the
  inputs is used.

  The three frame claims are the generated frame of each program (the reference's is its generated run with the
  result dropped); the idealization rewrote nothing, so `preserves` is trivial.
-/
import proofs.«114691_j55319178772781_2_alg».proof.Defs
import proofs.«114691_j55319178772781_2_alg».proof.Proof.Gen.Kernel
import proofs.«114691_j55319178772781_2_alg».proof.Proof.Gen.Kernel.Skeleton
import proofs.«114691_j55319178772781_2_alg».proof.Proof.Gen.Kernel.Launch
import proofs.«114691_j55319178772781_2_alg».proof.Proof.Gen.Kernel.Points
import proofs.«114691_j55319178772781_2_alg».proof.Proof.Gen.Kernel.Frame
import proofs.«114691_j55319178772781_2_alg».proof.Proof.Gen.KernelIdeal
import proofs.«114691_j55319178772781_2_alg».proof.Proof.Gen.KernelIdeal.Skeleton
import proofs.«114691_j55319178772781_2_alg».proof.Proof.Gen.KernelIdeal.Launch
import proofs.«114691_j55319178772781_2_alg».proof.Proof.Gen.KernelIdeal.Points
import proofs.«114691_j55319178772781_2_alg».proof.Proof.Gen.KernelIdeal.Frame
import proofs.«114691_j55319178772781_2_alg».proof.Proof.Gen.ReferenceIdeal
import proofs.«114691_j55319178772781_2_alg».proof.Proof.Gen.ReferenceIdeal.Run
import proofs.«114691_j55319178772781_2_alg».proof.Proof.Gen.ReferenceIdeal.Read
import proofs.«114691_j55319178772781_2_alg».proof.Proof.Gen.Pre_finite_inputs
import proofs.«114691_j55319178772781_2_alg».proof.Proof.KernelRun
import proofs.«114691_j55319178772781_2_alg».proof.Proof.RefRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the sum of the row terms of all rows of arguments that agree: the kernel by its
    running sum over the 64 blocks, the reference by its row-wise stages. -/
theorem algebraic : Cert.algebraic_KernelIdeal_ReferenceIdeal := by
  intro m ρ m' ρ' _ hagree
  refine ⟨fun c => fun _ => Cert.RowSpec.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  funext j
  exact Cert.RefRow.ref_value _ _ j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
